-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_alpha" .f32 0x40A00000#32 ((67108864 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S10x64 : Shape := ⟨2, ![10, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S10x64 : S_.BroadcastsInDim S10x64 (![] : Fin 0 → Fin S10x64.rank)
  reducesTo_S10x64_S_d0_1 : S10x64.ReducesTo [0, 1] S_

variable [Facts]

def fn_part1 {F : FTy → Type} [FloatOps F] (main_arg4 : FVec F S10x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S10x64 .f32 := Host.absf main_arg4
  let main_cst_6 : FVec F S_ .f32 := constant S_ .f32 0x7F800000#32
  let main_v20 : FVec F S10x64 .f32 := broadcastInDim S10x64 ![] bcast_S_S10x64 main_cst_6
  let main_v21 : IVec S10x64 1 := cmpf .olt main_v19 main_v20
  let main_c_7 : IVec S_ 1 := constantI S_ 1 1#1
  let main_v22 : IVec S_ 1 := (fun x v => Host.reduce IntOp.andi x v reducesTo_S10x64_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x64 .f32) (main_arg3 : FVec F S64 .f32) (main_arg4 : FVec F S10x64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S10x64 : Shape := ⟨2, ![10, 64]⟩
abbrev S1x64 : Shape := ⟨2, ![1, 64]⟩
abbrev S10000x64 : Shape := ⟨2, ![10000, 64]⟩
abbrev S10000x10 : Shape := ⟨2, ![10000, 10]⟩
abbrev S400x10000 : Shape := ⟨2, ![400, 10000]⟩
abbrev S400x64 : Shape := ⟨2, ![400, 64]⟩
abbrev S400x10 : Shape := ⟨2, ![400, 10]⟩
abbrev S400 : Shape := ⟨1, ![400]⟩
abbrev S400x1 : Shape := ⟨2, ![400, 1]⟩
abbrev S10 : Shape := ⟨1, ![10]⟩
abbrev S1x10 : Shape := ⟨2, ![1, 10]⟩

abbrev nBuf : Space → Nat
  | .hbm => 8
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S10x64, .f32⟩
  | .hbm, ⟨5, _⟩ => ⟨S1x64, .f32⟩
  | .hbm, ⟨6, _⟩ => ⟨S10000x64, .f32⟩
  | .hbm, ⟨7, _⟩ => ⟨S10000x10, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x64, .f32⟩
  | .local _ .vmem, ⟨4, _⟩ => ⟨S1x64, .f32⟩
  | .local _ .vmem, ⟨5, _⟩ => ⟨S10x64, .f32⟩
  | .local _ .vmem, ⟨6, _⟩ => ⟨S400x64, .f32⟩
  | .local _ .vmem, ⟨7, _⟩ => ⟨S400x64, .f32⟩
  | .local _ .vmem, ⟨8, _⟩ => ⟨S400x10, .f32⟩
  | .local _ .vmem, ⟨9, _⟩ => ⟨S400x10, .f32⟩
  | .local _ .vmem, ⟨10, _⟩ => ⟨S10000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  inb_S10x64_S10x64_0_0 : ∀ a, (![0, 0] : Fin 2 → Nat) a + S10x64.size a ≤ S10x64.size a
  h_S10x64 : 0 < S10x64.numel
  reduces_S400x64_S400 : S400x64.Reduces [1] S400
  shapeCasts_S400_S400x1 : S400.ShapeCasts S400x1
  reduces_S10x64_S10 : S10x64.Reduces [1] S10
  shapeCasts_S10_S1x10 : S10.ShapeCasts S1x10
  broadcasts_S400x1_S400x10 : S400x1.Broadcasts S400x10
  broadcasts_S1x10_S400x10 : S1x10.Broadcasts S400x10
  reduces_S400x10_S400 : S400x10.Reduces [1] S400
  inb_S400x10_S400x10_0_0 : ∀ a, (![0, 0] : Fin 2 → Nat) a + S400x10.size a ≤ S400x10.size a
  h_S400x10 : 0 < S400x10.numel
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S10x64_S400x10_1_1_0_0_n_n_wf : DotDims.WF S400x64 S10x64 S400x10 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x64.size a ≤ S10x64.size a
  hwx0_4 : ∀ i : grid0.Coords, EltTy.bits .f32 = 32 ∨ (Rect.block (s := S10x64) S10x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x64.size a ≤ S10000x64.size a
  hwx0_5 : ∀ i : grid0.Coords, EltTy.bits .f32 = 32 ∨ (Rect.block (s := S10000x64) S400x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x10.size a ≤ S10000x10.size a
  hwx0_6 : ∀ i : grid0.Coords, EltTy.bits .f32 = 32 ∨ (Rect.block (s := S10000x10) S400x10.size (cc0_transform_6 i) (hinb0_6 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S10x64_S400x10_1_1_0_0_n_n : DotDims S400x64 S10x64 S400x10 where
  lhsContracting := [1]
  rhsContracting := [1]
  lhsNonContracting := [0]
  rhsNonContracting := [0]
  lhsBatch := []
  rhsBatch := []
  wf := dot_S400x64_S10x64_S400x10_1_1_0_0_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S400x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S400x10.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S10x64 : Shape := ⟨2, ![10, 64]⟩
abbrev S10000x64 : Shape := ⟨2, ![10000, 64]⟩
abbrev S1x64 : Shape := ⟨2, ![1, 64]⟩
abbrev S10000x1x64 : Shape := ⟨3, ![10000, 1, 64]⟩
abbrev S1x10x64 : Shape := ⟨3, ![1, 10, 64]⟩
abbrev S10000x10x64 : Shape := ⟨3, ![10000, 10, 64]⟩
abbrev S_ : Shape := ⟨0, ![]⟩
abbrev S10000x10 : Shape := ⟨2, ![10000, 10]⟩
abbrev S10000 : Shape := ⟨1, ![10000]⟩
abbrev S10000x1 : Shape := ⟨2, ![10000, 1]⟩

abbrev nBuf : Space → Nat
  | .hbm => 38
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S10x64, .f32⟩
  | .hbm, ⟨5, _⟩ => ⟨S10000x64, .f32⟩
  | .hbm, ⟨6, _⟩ => ⟨S10000x64, .f32⟩
  | .hbm, ⟨7, _⟩ => ⟨S1x64, .f32⟩
  | .hbm, ⟨8, _⟩ => ⟨S10000x64, .f32⟩
  | .hbm, ⟨9, _⟩ => ⟨S10000x64, .f32⟩
  | .hbm, ⟨10, _⟩ => ⟨S10000x1x64, .f32⟩
  | .hbm, ⟨11, _⟩ => ⟨S1x10x64, .f32⟩
  | .hbm, ⟨12, _⟩ => ⟨S10000x10x64, .f32⟩
  | .hbm, ⟨13, _⟩ => ⟨S10000x10x64, .f32⟩
  | .hbm, ⟨14, _⟩ => ⟨S10000x10x64, .f32⟩
  | .hbm, ⟨15, _⟩ => ⟨S10000x10x64, .f32⟩
  | .hbm, ⟨16, _⟩ => ⟨S_, .f32⟩
  | .hbm, ⟨17, _⟩ => ⟨S10000x10, .f32⟩
  | .hbm, ⟨18, _⟩ => ⟨S_, .f32⟩
  | .hbm, ⟨19, _⟩ => ⟨S10000x10, .f32⟩
  | .hbm, ⟨20, _⟩ => ⟨S10000x10, .f32⟩
  | .hbm, ⟨21, _⟩ => ⟨S_, .f32⟩
  | .hbm, ⟨22, _⟩ => ⟨S10000x10, .f32⟩
  | .hbm, ⟨23, _⟩ => ⟨S10000x10, .f32⟩
  | .hbm, ⟨24, _⟩ => ⟨S_, .f32⟩
  | .hbm, ⟨25, _⟩ => ⟨S10000x10, .f32⟩
  | .hbm, ⟨26, _⟩ => ⟨S10000x10, .f32⟩
  | .hbm, ⟨27, _⟩ => ⟨S_, .f32⟩
  | .hbm, ⟨28, _⟩ => ⟨S10000x10, .f32⟩
  | .hbm, ⟨29, _⟩ => ⟨S10000x10, .f32⟩
  | .hbm, ⟨30, _⟩ => ⟨S_, .f32⟩
  | .hbm, ⟨31, _⟩ => ⟨S10000x10, .f32⟩
  | .hbm, ⟨32, _⟩ => ⟨S10000x10, .f32⟩
  | .hbm, ⟨33, _⟩ => ⟨S_, .f32⟩
  | .hbm, ⟨34, _⟩ => ⟨S10000, .f32⟩
  | .hbm, ⟨35, _⟩ => ⟨S10000x1, .f32⟩
  | .hbm, ⟨36, _⟩ => ⟨S10000x10, .f32⟩
  | .hbm, ⟨37, _⟩ => ⟨S10000x10, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S10000x64_S10000x1x64_0_2 : S10000x64.BroadcastsInDim S10000x1x64 (![0, 2] : Fin 2 → Fin S10000x1x64.rank)
  bcast_S10x64_S1x10x64_1_2 : S10x64.BroadcastsInDim S1x10x64 (![1, 2] : Fin 2 → Fin S1x10x64.rank)
  bcast_S10000x1x64_S10000x10x64_0_1_2 : S10000x1x64.BroadcastsInDim S10000x10x64 (![0, 1, 2] : Fin 3 → Fin S10000x10x64.rank)
  bcast_S1x10x64_S10000x10x64_0_1_2 : S1x10x64.BroadcastsInDim S10000x10x64 (![0, 1, 2] : Fin 3 → Fin S10000x10x64.rank)
  reducesTo_S10000x10x64_S10000x10_d2 : S10000x10x64.ReducesTo [2] S10000x10
  h_S_ : 0 < S_.numel
  bcast_S_S10000x10 : S_.BroadcastsInDim S10000x10 (![] : Fin 0 → Fin S10000x10.rank)
  reducesTo_S10000x10_S10000_d1 : S10000x10.ReducesTo [1] S10000
  bcast_S10000_S10000x1_0 : S10000.BroadcastsInDim S10000x1 (![0] : Fin 1 → Fin S10000x1.rank)
  bcast_S10000x1_S10000x10_0_1 : S10000x1.BroadcastsInDim S10000x10 (![0, 1] : Fin 2 → Fin S10000x10.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.Pieces.lean ====
/-
  What one run of the body leaves behind, as values.

  The body is run in two ways. At the first grid point it fills the resident scratch with the product
  x · W, reads it back, and forms its two output blocks from it; at every later point it leaves the scratch
  alone and forms the two blocks from what the scratch already holds. Each buffer is written by one store
  that covers it, so what it holds afterwards is that store's value, and every load reads a whole buffer.
  Hence: the scratch after the first point is the product (`k0_pay2`); the first output block is
  adjacency-block · scratch + bias (`k0_pay3`); the second is the row-normalised weights (`k0_pay1` of
  `k0_pay4`) — over the fresh product at the first point, over the carried scratch afterwards.
  All of it holds for any float values.
-/
import proofs.«118470_g75067438399519_cont_9to1c4b_260_26_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Dec.Pieces

open Cert.KernelIdeal Cert.KernelIdeal.Gen

variable {F : FTy → Type} [FloatOps F] [Named F]

/-- Every rectangle of the body starts at the origin. -/
theorem hz : (![0, 0] : Fin 2 → Nat) = fun _ => 0 := funext fun a => by fin_cases a <;> rfl

/-- A later point: the first output block is adjacency-block · carried scratch + bias. -/
theorem out_B_5 (c : Dev nD) (i : grid0.Coords) (a1 : Memref sig .tc .vmem S10000x128 .f32) (h1 : a1.IsWhole) (a2 : Memref sig .tc .vmem S400x10000 .f32) (h2 : a2.IsWhole) (a3 : Memref sig .tc .vmem S128x64 .f32) (h3 : a3.IsWhole) (a4 : Memref sig .tc .vmem S1x64 .f32) (h4 : a4.IsWhole) (a5 : Memref sig .tc .vmem S10x64 .f32) (h5 : a5.IsWhole) (a6 : Memref sig .tc .vmem S400x64 .f32) (h6 : a6.IsWhole) (a7 : Memref sig .tc .vmem S400x10 .f32) (h7 : a7.IsWhole) (a8 : Memref sig .tc .vmem S10000x64 .f32) (h8 : a8.IsWhole) (hc : ¬cond0_0 i) (x0 : Vec F S10000x128 .f32) (x1 : Vec F S400x10000 .f32) (x2 : Vec F S128x64 .f32) (x3 : Vec F S1x64 .f32) (x4 : Vec F S10x64 .f32) (xs0 : Vec F S10000x64 .f32) :
    out0_B_5 c i a1 h1 a2 h2 a3 h3 a4 h4 a5 h5 a6 h6 a7 h7 a8 h8 hc x0 x1 x2 x3 x4 xs0 = k0_pay3 x1 xs0 x3 := by
  unfold out0_B_5
  rw [View.read_writes_eq_canon _ _ _ (cover0_B_5 c i a1 h1 a2 h2 a3 h3 a4 h4 a5 h5 a6 h6 a7 h7 a8 h8 hc x0 x1 x2 x3 x4 xs0)]
  unfold kernelRun0_B
  dsimp only
  rw [View.canon_unit_zero hz]
  simp only [View.readAt_eq_ld, h1.read_unread, h2.read_unread, h3.read_unread, h4.read_unread, h5.read_unread, h8.read_unread, View.ld_unit_zero (S := S400x10000) hz, View.ld_unit_zero (S := S10000x64) hz, View.ld_unit_zero (S := S1x64) hz, View.ld_unit_zero (S := S10x64) hz, View.ld_unit_zero (S := S10000x128) hz, View.ld_unit_zero (S := S128x64) hz]

/-- A later point: the second output block is the normalised weights over the carried scratch. -/
theorem out_B_6 (c : Dev nD) (i : grid0.Coords) (a1 : Memref sig .tc .vmem S10000x128 .f32) (h1 : a1.IsWhole) (a2 : Memref sig .tc .vmem S400x10000 .f32) (h2 : a2.IsWhole) (a3 : Memref sig .tc .vmem S128x64 .f32) (h3 : a3.IsWhole) (a4 : Memref sig .tc .vmem S1x64 .f32) (h4 : a4.IsWhole) (a5 : Memref sig .tc .vmem S10x64 .f32) (h5 : a5.IsWhole) (a6 : Memref sig .tc .vmem S400x64 .f32) (h6 : a6.IsWhole) (a7 : Memref sig .tc .vmem S400x10 .f32) (h7 : a7.IsWhole) (a8 : Memref sig .tc .vmem S10000x64 .f32) (h8 : a8.IsWhole) (hc : ¬cond0_0 i) (x0 : Vec F S10000x128 .f32) (x1 : Vec F S400x10000 .f32) (x2 : Vec F S128x64 .f32) (x3 : Vec F S1x64 .f32) (x4 : Vec F S10x64 .f32) (xs0 : Vec F S10000x64 .f32) :
    out0_B_6 c i a1 h1 a2 h2 a3 h3 a4 h4 a5 h5 a6 h6 a7 h7 a8 h8 hc x0 x1 x2 x3 x4 xs0 = k0_pay1 (k0_pay4 x1 xs0 x3 x4) := by
  unfold out0_B_6
  rw [View.read_writes_eq_canon _ _ _ (cover0_B_6 c i a1 h1 a2 h2 a3 h3 a4 h4 a5 h5 a6 h6 a7 h7 a8 h8 hc x0 x1 x2 x3 x4 xs0)]
  unfold kernelRun0_B
  dsimp only
  sl_unfold_words
  rw [View.canon_unit_zero hz]
  simp only [View.readAt_eq_ld, h1.read_unread, h2.read_unread, h3.read_unread, h4.read_unread, h5.read_unread, h8.read_unread, View.ld_unit_zero (S := S400x10000) hz, View.ld_unit_zero (S := S10000x64) hz, View.ld_unit_zero (S := S1x64) hz, View.ld_unit_zero (S := S10x64) hz, View.ld_unit_zero (S := S10000x128) hz, View.ld_unit_zero (S := S128x64) hz]

/-- The first point: the scratch ends holding the product x · W. -/
theorem sout_A_0 (c : Dev nD) (i : grid0.Coords) (a1 : Memref sig .tc .vmem S10000x128 .f32) (h1 : a1.IsWhole) (a2 : Memref sig .tc .vmem S400x10000 .f32) (h2 : a2.IsWhole) (a3 : Memref sig .tc .vmem S128x64 .f32) (h3 : a3.IsWhole) (a4 : Memref sig .tc .vmem S1x64 .f32) (h4 : a4.IsWhole) (a5 : Memref sig .tc .vmem S10x64 .f32) (h5 : a5.IsWhole) (a6 : Memref sig .tc .vmem S400x64 .f32) (h6 : a6.IsWhole) (a7 : Memref sig .tc .vmem S400x10 .f32) (h7 : a7.IsWhole) (a8 : Memref sig .tc .vmem S10000x64 .f32) (h8 : a8.IsWhole) (hc : cond0_0 i) (x0 : Vec F S10000x128 .f32) (x1 : Vec F S400x10000 .f32) (x2 : Vec F S128x64 .f32) (x3 : Vec F S1x64 .f32) (x4 : Vec F S10x64 .f32) :
    sout0_A_0 c i a1 h1 a2 h2 a3 h3 a4 h4 a5 h5 a6 h6 a7 h7 a8 h8 hc x0 x1 x2 x3 x4 = k0_pay2 x0 x2 := by
  unfold sout0_A_0
  rw [View.read_writes_eq_canon _ _ _ (scover0_A_0 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, h8.read_unread, View.ld_unit_zero (S := S400x10000) hz, View.ld_unit_zero (S := S10000x64) hz, View.ld_unit_zero (S := S1x64) hz, View.ld_unit_zero (S := S10x64) hz, View.ld_unit_zero (S := S10000x128) hz, View.ld_unit_zero (S := S128x64) hz]

/-- The first point: the first output block is adjacency-block · (x · W) + bias. -/
theorem out_A_5 (c : Dev nD) (i : grid0.Coords) (a1 : Memref sig .tc .vmem S10000x128 .f32) (h1 : a1.IsWhole) (a2 : Memref sig .tc .vmem S400x10000 .f32) (h2 : a2.IsWhole) (a3 : Memref sig .tc .vmem S128x64 .f32) (h3 : a3.IsWhole) (a4 : Memref sig .tc .vmem S1x64 .f32) (h4 : a4.IsWhole) (a5 : Memref sig .tc .vmem S10x64 .f32) (h5 : a5.IsWhole) (a6 : Memref sig .tc .vmem S400x64 .f32) (h6 : a6.IsWhole) (a7 : Memref sig .tc .vmem S400x10 .f32) (h7 : a7.IsWhole) (a8 : Memref sig .tc .vmem S10000x64 .f32) (h8 : a8.IsWhole) (hc : cond0_0 i) (x0 : Vec F S10000x128 .f32) (x1 : Vec F S400x10000 .f32) (x2 : Vec F S128x64 .f32) (x3 : Vec F S1x64 .f32) (x4 : Vec F S10x64 .f32) :
    out0_A_5 c i a1 h1 a2 h2 a3 h3 a4 h4 a5 h5 a6 h6 a7 h7 a8 h8 hc x0 x1 x2 x3 x4 = k0_pay3 x1 (k0_pay2 x0 x2) x3 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz, View.readCov_unit_zero (S := S10000x64) _ hz]
  simp only [View.readAt_eq_ld, h1.read_unread, h2.read_unread, h3.read_unread, h4.read_unread, h5.read_unread, h8.read_unread, View.ld_unit_zero (S := S400x10000) hz, View.ld_unit_zero (S := S10000x64) hz, View.ld_unit_zero (S := S1x64) hz, View.ld_unit_zero (S := S10x64) hz, View.ld_unit_zero (S := S10000x128) hz, View.ld_unit_zero (S := S128x64) hz]

/-- The first point: the second output block is the normalised weights over x · W. -/
theorem out_A_6 (c : Dev nD) (i : grid0.Coords) (a1 : Memref sig .tc .vmem S10000x128 .f32) (h1 : a1.IsWhole) (a2 : Memref sig .tc .vmem S400x10000 .f32) (h2 : a2.IsWhole) (a3 : Memref sig .tc .vmem S128x64 .f32) (h3 : a3.IsWhole) (a4 : Memref sig .tc .vmem S1x64 .f32) (h4 : a4.IsWhole) (a5 : Memref sig .tc .vmem S10x64 .f32) (h5 : a5.IsWhole) (a6 : Memref sig .tc .vmem S400x64 .f32) (h6 : a6.IsWhole) (a7 : Memref sig .tc .vmem S400x10 .f32) (h7 : a7.IsWhole) (a8 : Memref sig .tc .vmem S10000x64 .f32) (h8 : a8.IsWhole) (hc : cond0_0 i) (x0 : Vec F S10000x128 .f32) (x1 : Vec F S400x10000 .f32) (x2 : Vec F S128x64 .f32) (x3 : Vec F S1x64 .f32) (x4 : Vec F S10x64 .f32) :
    out0_A_6 c i a1 h1 a2 h2 a3 h3 a4 h4 a5 h5 a6 h6 a7 h7 a8 h8 hc x0 x1 x2 x3 x4 = k0_pay1 (k0_pay4 x1 (k0_pay2 x0 x2) x3 x4) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_unit_zero hz, View.readCov_unit_zero (S := S10000x64) _ hz]
  simp only [View.readAt_eq_ld, h1.read_unread, h2.read_unread, h3.read_unread, h4.read_unread, h5.read_unread, h8.read_unread, View.ld_unit_zero (S := S400x10000) hz, View.ld_unit_zero (S := S10000x64) hz, View.ld_unit_zero (S := S1x64) hz, View.ld_unit_zero (S := S10x64) hz, View.ld_unit_zero (S := S10000x128) hz, View.ld_unit_zero (S := S128x64) hz]

end Dec.Pieces

end
-- ==== Proof.Spec.lean ====
/-
  The mathematics of the two programs, with no program in sight.

  A graph-convolution layer followed by a soft cluster assignment. With x the node features, W the weights,
  adj the (dense) adjacency, b the bias and mu the ten cluster centres:

    support = x · W                       (10000 × 64)
    hidden  = adj · support + b           (10000 × 64)
    d(r, c) = the squared distance between row r of hidden and centre c
    u(r, c) = (1 / (1 + d(r, c) / α + ε)) ^ e          α, ε, e three float literals
    q(r, c) = u(r, c) / Σ_c' u(r, c')

  One program spells the squared distance as Σ_k (h_k - m_k)², the other as Σ h² - 2 Σ h·m + Σ m²; one spells the
  weight as a power of a reciprocal, the other as exp (-e · log (1 + d · (1/α) + ε)), with 1/α the exact reciprocal
  of the literal α. On the extended reals the two spellings agree as soon as the entries of hidden and of mu are
  real numbers (the expansion of the square needs subtraction to cancel, and log / exp / power need a real, positive
  base) — which they are when every input entry is a real number. This module states both spellings and proves
  that agreement.
-/
import Idealize.ShloMosaic.PureOps.Ideal
import Idealize.ShloMosaic.PureOps.Ideal.Laws
import Idealize.ShloMosaic.Lib.ValueIdx

noncomputable section

namespace Dec

open Idealize.ShloMosaic Idealize.ShloMosaic.ValueIdx

/-! ## The float literals, as the numbers they denote -/

/-- The literal `1.0`. -/
abbrev one : EReal := Ideal.ofBits .f32 0x3F800000#32
/-- The literal `2.0`. -/
abbrev two : EReal := Ideal.ofBits .f32 0x40000000#32
/-- The small literal added to the base (the f32 nearest 1e-8). -/
abbrev eps : EReal := Ideal.ofBits .f32 0x322BCC77#32
/-- The literal the squared distance is divided by (the f32 nearest 0.2). -/
abbrev alpha : EReal := Ideal.ofBits .f32 0x3E4CCCCD#32
/-- The exponent (the f32 nearest 0.6) and its negation. -/
abbrev expo : EReal := Ideal.ofBits .f32 0x3F19999A#32
abbrev nexpo : EReal := Ideal.ofBits .f32 0xBF19999A#32
/-- The exact reciprocal of `alpha`. -/
abbrev invAlpha : EReal := ((67108864 / 13421773 : ℝ) : EReal)

theorem one_eq : one = ((1 : ℝ) : EReal) := by
  simp [one, Ideal.ofBits, Ideal.ieee, -EReal.coe_mul]; norm_num
theorem two_eq : two = ((2 : ℝ) : EReal) := by
  simp [two, Ideal.ofBits, Ideal.ieee, -EReal.coe_mul]; norm_num
theorem eps_eq : eps = ((11258999 / 1125899906842624 : ℝ) : EReal) := by
  simp [eps, Ideal.ofBits, Ideal.ieee, -EReal.coe_mul]; norm_num
theorem alpha_eq : alpha = ((13421773 / 67108864 : ℝ) : EReal) := by
  simp [alpha, Ideal.ofBits, Ideal.ieee, -EReal.coe_mul]; norm_num
theorem expo_eq : expo = ((5033165 / 8388608 : ℝ) : EReal) := by
  simp [expo, Ideal.ofBits, Ideal.ieee, -EReal.coe_mul]; norm_num
theorem nexpo_eq : nexpo = ((-(5033165 / 8388608) : ℝ) : EReal) := by
  simp [nexpo, Ideal.ofBits, Ideal.ieee, -EReal.coe_mul]; norm_num

/-! ## The layer -/

/-- Entry (j, k) of x · W. -/
def support (x : (⟨2, ![10000, 128]⟩ : Shape).Idx → EReal) (w : (⟨2, ![128, 64]⟩ : Shape).Idx → EReal)
    (j : Fin 10000) (k : Fin 64) : EReal :=
  ∑ f : Fin 128, x (ix2 j f) * w (ix2 f k)

/-- Entry (p, k) of adj · (x · W) + b. -/
def hidden (x : (⟨2, ![10000, 128]⟩ : Shape).Idx → EReal) (adj : (⟨2, ![10000, 10000]⟩ : Shape).Idx → EReal)
    (w : (⟨2, ![128, 64]⟩ : Shape).Idx → EReal) (b : (⟨1, ![64]⟩ : Shape).Idx → EReal)
    (p : Fin 10000) (k : Fin 64) : EReal :=
  (∑ j : Fin 10000, adj (ix2 p j) * support x w j k) + b (ix1 k)

/-! ## The assignment, in the two spellings -/

/-- The squared distance of two rows, as the sum of squared differences. -/
def sqDist (h m : Fin 64 → EReal) : EReal := ∑ k : Fin 64, (h k - m k) * (h k - m k)

/-- The squared distance expanded: ‖h‖² - 2 h·m + ‖m‖². -/
def sqDistX (h m : Fin 64 → EReal) : EReal :=
  (∑ k : Fin 64, h k * h k) - two * (∑ k : Fin 64, h k * m k) + ∑ k : Fin 64, m k * m k

/-- The weight of a squared distance, as a power of a reciprocal. -/
def weight (d : EReal) : EReal := Ideal.pow (Ideal.div one ((one + Ideal.div d alpha) + eps)) expo

/-- The weight through exp and log, the division by α as a product with its reciprocal. -/
def weightX (d : EReal) : EReal := Ideal.exp (nexpo * Ideal.log ((one + d * invAlpha) + eps))

/-- A row of weights divided by its sum. -/
def assign (u : Fin 10 → EReal) (c : Fin 10) : EReal := Ideal.div (u c) (∑ k : Fin 10, u k)

/-- The first result, as an array. -/
def outArr (x : (⟨2, ![10000, 128]⟩ : Shape).Idx → EReal) (adj : (⟨2, ![10000, 10000]⟩ : Shape).Idx → EReal)
    (w : (⟨2, ![128, 64]⟩ : Shape).Idx → EReal) (b : (⟨1, ![64]⟩ : Shape).Idx → EReal) :
    (⟨2, ![10000, 64]⟩ : Shape).Idx → EReal :=
  fun i => hidden x adj w b (i 0) (i 1)

/-- The second result, as an array: sums of squared differences, the weight as a power. -/
def qArr (x : (⟨2, ![10000, 128]⟩ : Shape).Idx → EReal) (adj : (⟨2, ![10000, 10000]⟩ : Shape).Idx → EReal)
    (w : (⟨2, ![128, 64]⟩ : Shape).Idx → EReal) (b : (⟨1, ![64]⟩ : Shape).Idx → EReal)
    (mu : (⟨2, ![10, 64]⟩ : Shape).Idx → EReal) : (⟨2, ![10000, 10]⟩ : Shape).Idx → EReal :=
  fun i => assign (fun c => weight (sqDist (hidden x adj w b (i 0)) (fun k => mu (ix2 c k)))) (i 1)

/-- The second result in the other spelling: expanded squares, the weight through exp and log. -/
def qArrX (x : (⟨2, ![10000, 128]⟩ : Shape).Idx → EReal) (adj : (⟨2, ![10000, 10000]⟩ : Shape).Idx → EReal)
    (w : (⟨2, ![128, 64]⟩ : Shape).Idx → EReal) (b : (⟨1, ![64]⟩ : Shape).Idx → EReal)
    (mu : (⟨2, ![10, 64]⟩ : Shape).Idx → EReal) : (⟨2, ![10000, 10]⟩ : Shape).Idx → EReal :=
  fun i => assign (fun c => weightX (sqDistX (hidden x adj w b (i 0)) (fun k => mu (ix2 c k)))) (i 1)

/-! ## Real entries stay real -/

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of real numbers is a real number. -/
theorem real_sum_mul {ι : Type*} [Fintype ι] (f g : ι → EReal) (hf : ∀ i, ∃ r : ℝ, f i = (r : EReal))
    (hg : ∀ i, ∃ r : ℝ, g i = (r : EReal)) : ∃ r : ℝ, ∑ i, f i * g i = (r : EReal) := by
  choose a ha using hf
  choose c hc using hg
  refine ⟨∑ i, a i * c i, ?_⟩
  rw [coe_sum]
  exact Finset.sum_congr rfl fun i _ => by rw [ha, hc, EReal.coe_mul]

/-- With real inputs every entry of the hidden layer is a real number. -/
theorem hidden_real (x : (⟨2, ![10000, 128]⟩ : Shape).Idx → EReal) (adj : (⟨2, ![10000, 10000]⟩ : Shape).Idx → EReal)
    (w : (⟨2, ![128, 64]⟩ : Shape).Idx → EReal) (b : (⟨1, ![64]⟩ : Shape).Idx → EReal)
    (hx : ∀ i, ∃ r : ℝ, x i = (r : EReal)) (hadj : ∀ i, ∃ r : ℝ, adj i = (r : EReal))
    (hw : ∀ i, ∃ r : ℝ, w i = (r : EReal)) (hb : ∀ i, ∃ r : ℝ, b i = (r : EReal)) (p : Fin 10000) (k : Fin 64) :
    ∃ r : ℝ, hidden x adj w b p k = (r : EReal) := by
  obtain ⟨s, hs⟩ := real_sum_mul (fun j : Fin 10000 => adj (ix2 p j)) (fun j => support x w j k)
    (fun j => hadj _) (fun j => real_sum_mul (fun f : Fin 128 => x (ix2 j f)) (fun f => w (ix2 f k)) (fun f => hx _) (fun f => hw _))
  obtain ⟨t, ht⟩ := hb (ix1 k)
  refine ⟨s + t, ?_⟩
  unfold hidden
  rw [hs, ht, EReal.coe_add]

/-! ## The two spellings agree on real rows -/

/-- On real rows both spellings of the squared distance are the real sum of squared differences. -/
theorem sqDist_coe (a m : Fin 64 → ℝ) :
    sqDist (fun k => (a k : EReal)) (fun k => (m k : EReal)) = ((∑ k : Fin 64, (a k - m k) * (a k - m k) : ℝ) : EReal) := by
  unfold sqDist
  rw [coe_sum]
  exact Finset.sum_congr rfl fun k _ => by rw [← EReal.coe_sub, ← EReal.coe_mul]

theorem sqDistX_coe (a m : Fin 64 → ℝ) :
    sqDistX (fun k => (a k : EReal)) (fun k => (m k : EReal)) = ((∑ k : Fin 64, (a k - m k) * (a k - m k) : ℝ) : EReal) := by
  unfold sqDistX
  have e1 : (∑ k : Fin 64, (a k : EReal) * (a k : EReal)) = ((∑ k : Fin 64, a k * a k : ℝ) : EReal) := by
    rw [coe_sum]; exact Finset.sum_congr rfl fun k _ => by rw [EReal.coe_mul]
  have e2 : (∑ k : Fin 64, (a k : EReal) * (m k : EReal)) = ((∑ k : Fin 64, a k * m k : ℝ) : EReal) := by
    rw [coe_sum]; exact Finset.sum_congr rfl fun k _ => by rw [EReal.coe_mul]
  have e3 : (∑ k : Fin 64, (m k : EReal) * (m k : EReal)) = ((∑ k : Fin 64, m k * m k : ℝ) : EReal) := by
    rw [coe_sum]; exact Finset.sum_congr rfl fun k _ => by rw [EReal.coe_mul]
  rw [e1, e2, e3, two_eq, ← EReal.coe_mul, ← EReal.coe_sub, ← EReal.coe_add]
  congr 1
  rw [Finset.mul_sum, ← Finset.sum_sub_distrib, ← Finset.sum_add_distrib]
  exact Finset.sum_congr rfl fun k _ => by ring

/-- The real sum of squared differences is not negative. -/
theorem sq_nonneg_sum (a m : Fin 64 → ℝ) : 0 ≤ ∑ k : Fin 64, (a k - m k) * (a k - m k) :=
  Finset.sum_nonneg fun k _ => mul_self_nonneg _

/-- On a real, non-negative squared distance the two spellings of the weight agree: the base 1 + d/α + ε is a
    positive real, so the power of its reciprocal is exp (-e · log base). -/
theorem weightX_eq_weight (d : ℝ) (hd : 0 ≤ d) : weightX (d : EReal) = weight (d : EReal) := by
  unfold weightX weight
  have hα : (13421773 / 67108864 : ℝ) ≠ 0 := by norm_num
  rw [alpha_eq, Ideal.div_coe hα, one_eq, eps_eq, expo_eq, nexpo_eq]
  have hinv : (1 / (13421773 / 67108864 : ℝ)) = (67108864 / 13421773 : ℝ) := by norm_num
  rw [hinv]
  rw [← EReal.coe_mul, ← EReal.coe_add, ← EReal.coe_add]
  set B : ℝ := 1 + d * (67108864 / 13421773) + 11258999 / 1125899906842624 with hB
  have hBpos : 0 < B := by
    have : 0 ≤ d * (67108864 / 13421773 : ℝ) := mul_nonneg hd (by norm_num)
    have : (0 : ℝ) < 11258999 / 1125899906842624 := by norm_num
    rw [hB]; linarith
  have hBne : ((B : ℝ) : EReal) ≠ 0 := by
    rw [Ne, EReal.coe_eq_zero]; exact ne_of_gt hBpos
  rw [Ideal.log_coe, if_neg (not_le.mpr hBpos), ← EReal.coe_mul, Ideal.exp_coe]
  unfold Ideal.div
  rw [if_neg hBne, ← EReal.coe_inv, ← EReal.coe_mul, Ideal.pow_coe_coe]
  congr 1
  rw [one_mul]
  show Real.exp _ = B⁻¹ ^ (5033165 / 8388608 : ℝ)
  rw [Real.rpow_def_of_pos (inv_pos.mpr hBpos), Real.log_inv]
  congr 1
  ring

/-- With real inputs the two spellings of the assignment are the same array. -/
theorem qArrX_eq_qArr (x : (⟨2, ![10000, 128]⟩ : Shape).Idx → EReal) (adj : (⟨2, ![10000, 10000]⟩ : Shape).Idx → EReal)
    (w : (⟨2, ![128, 64]⟩ : Shape).Idx → EReal) (b : (⟨1, ![64]⟩ : Shape).Idx → EReal)
    (mu : (⟨2, ![10, 64]⟩ : Shape).Idx → EReal)
    (hx : ∀ i, ∃ r : ℝ, x i = (r : EReal)) (hadj : ∀ i, ∃ r : ℝ, adj i = (r : EReal))
    (hw : ∀ i, ∃ r : ℝ, w i = (r : EReal)) (hb : ∀ i, ∃ r : ℝ, b i = (r : EReal))
    (hmu : ∀ i, ∃ r : ℝ, mu i = (r : EReal)) : qArrX x adj w b mu = qArr x adj w b mu := by
  funext i
  unfold qArrX qArr
  have hrow : ∀ c : Fin 10, weightX (sqDistX (hidden x adj w b (i 0)) (fun k => mu (ix2 c k)))
      = weight (sqDist (hidden x adj w b (i 0)) (fun k => mu (ix2 c k))) := by
    intro c
    choose a ha using fun k : Fin 64 => hidden_real x adj w b hx hadj hw hb (i 0) k
    choose m hm using fun k : Fin 64 => hmu (ix2 c k)
    have eh : hidden x adj w b (i 0) = fun k => (a k : EReal) := funext ha
    have em : (fun k => mu (ix2 c k)) = fun k => (m k : EReal) := funext hm
    rw [eh, em, sqDistX_coe, sqDist_coe]
    exact weightX_eq_weight _ (sq_nonneg_sum a m)
  rw [funext hrow]

end Dec

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«118470_g75067438399519_cont_9to1c4b_260_26_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibTransposedDot.lean ====
/-
  A matrix product whose right operand is contracted on its LAST axis, read at an entry.

  The dimension numbers "contract the left operand's columns with the right operand's columns, no batch axis"
  (`DotDims.transposedRhs M K N`: an `M × K` matrix against an `N × K` one) give, on the extended reals and
  into a zero accumulator, the entry `(p, q) ↦ ∑ k, lhs (p, k) * rhs (q, k)`: the product with the right
  operand's transpose. The contraction index of the library is a one-coordinate index; the bijection with
  `Fin K` moves the sum.
-/
import Idealize.ShloMosaic.PureOps.Ideal.Laws
import Idealize.ShloMosaic.Lib.ValueIdx

namespace LinkLoss

open Idealize.ShloMosaic Idealize.ShloMosaic.ValueIdx

variable {M K N : ℕ}

/-- The left operand's index at output entry `(p, q)` and contracted coordinate `k` is `(p, k)`. -/
theorem transposed_lhsIdx (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl _ _).trans hk

/-- The right operand's index at output entry `(p, q)` and contracted coordinate `k` is `(q, k)`. -/
theorem transposed_rhsIdx (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl _ _).trans hk

/-- The matrix unit accumulating into the zero vector, read at entry `(p, q)`. -/
theorem transposed_matmul_zero_apply {φ₁ φ₂ : FTy} (lhs : FVec Ideal ⟨2, ![M, K]⟩ φ₁) (rhs : FVec Ideal ⟨2, ![N, K]⟩ φ₂)
    (prec : Option ContractPrecision) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  refine (Ideal.matmul_constant_zero_apply (DotDims.transposedRhs M K N) prec lhs rhs (ix2 p q)).trans ?_
  rw [← Equiv.sum_comp (contrEquiv1 (DotDims.transposedRhs M K N) K rfl rfl).symm]
  refine Finset.sum_congr rfl fun k _ => ?_
  rw [transposed_lhsIdx, transposed_rhsIdx]

end LinkLoss
-- ==== Proof.LibTransposedRecord.lean ====
/-
  A printed matrix-product record read as the product with the right operand's transpose.

  A matrix product of an [M, K] by an [N, K] operand that contracts the columns of both operands and has no
  batch axis is determined by its six lists of axes; the record's last field is a proof. So any record with those
  lists IS the record of the product with the transposed right operand, and at entry (p, q) the product
  accumulated into zero is the sum over k of lhs (p, k) * rhs (q, k), on the extended reals.
-/
import proofs.«118470_g75067438399519_cont_9to1c4b_260_26_alg».proof.Proof.LibTransposedDot

namespace TransposedRecord

open Idealize.ShloMosaic Idealize.ShloMosaic.ValueIdx

variable {M K N : ℕ}

/-- A record whose six axis lists contract both operands' last axes is the transposed-right-operand record. -/
theorem eq_transposedRhs (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) :
    d = DotDims.transposedRhs M K N := by
  obtain ⟨lc, rc, ln, rn, lb, rb, wf⟩ := d
  simp only at h1 h2 h3 h4 h5 h6
  subst h1 h2 h3 h4 h5 h6
  rfl

/-- The matrix unit accumulating into the zero vector, under any record with those lists, at entry (p, q):
    the row p of the left operand against the row q of the right one. -/
theorem matmul_zero_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (lhs : FVec Ideal ⟨2, ![M, K]⟩ φ₁) (rhs : FVec Ideal ⟨2, ![N, K]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 q k) := by
  rw [eq_transposedRhs d h1 h2 h3 h4 h5 h6]
  exact LinkLoss.transposed_matmul_zero_apply lhs rhs prec p q

end TransposedRecord
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibTileOps.lean ====
/-
  The layout chains of a tile body, read at an entry.

  A body that works on an `[a, b]` tile against per-column parameters meets a handful of chains of layout
  operations again and again: a `[b]` vector recast to the row `[1, b]` and broadcast down the tile's rows; one row of a
  `[m, b]` block sliced out, flattened, recast and broadcast the same way; one `[1, a, b]` slab of an `[m, a, b]` stack
  loaded through its rectangle and recast to the matrix `[a, b]`; a row sum recast to a column and broadcast across the
  tile's columns. Each lemma reads one chain at the entry `(p, c)` as the operand at the evident index.
-/
import Idealize.ShloMosaic.PureOps.Ideal.Laws
import Idealize.ShloMosaic.Lib.ValueIdx
import Idealize.ShloMosaic.Lib.ValueLayout
import Idealize.ShloMosaic.Lib.Pipeline.Value
import proofs.«118470_g75067438399519_cont_9to1c4b_260_26_alg».proof.Proof.LibRowOps

namespace Hmu.Lib

open Idealize.ShloMosaic Idealize.ShloMosaic.ValueIdx

variable {a b m : ℕ} {α : Type}

/-- A `[b]` vector recast to the row `[1, b]` and broadcast over `[a, b]` reads, at `(p, c)`, the vector at `c`. -/
theorem rowVec_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The same with a cast of the vector to its own shape first. -/
theorem rowVec_self_apply (v : (⟨1, ![b]⟩ : Shape).Idx → α) (h0 : (⟨1, ![b]⟩ : Shape).ShapeCasts ⟨1, ![b]⟩)
    (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h0) h1) h2 (ix2 p c) = v (ix1 c) := by
  rw [shapeCast_self]; exact rowVec_apply v h1 h2 p c

/-- Row `k` of an `[m, b]` block, sliced out as `[1, b]` at the literal offset `o = k`, flattened to `[b]`, recast to `[1, b]` and
    broadcast over `[a, b]`, reads at `(p, c)` the block at `(k, c)`. -/
theorem blockRow_apply (v : (⟨2, ![m, b]⟩ : Shape).Idx → α) (o : ℕ) (k : Fin m) (hk : k.val = o)
    (hs : (⟨2, ![m, b]⟩ : Shape).Slices ![o, 0] ⟨2, ![1, b]⟩)
    (h0 : (⟨2, ![1, b]⟩ : Shape).ShapeCasts ⟨1, ![b]⟩) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ (extractStridedSlice ⟨2, ![1, b]⟩ ![o, 0] v hs) h0) h1) h2 (ix2 p c)
      = v (ix2 k c) :=
  (rowVec_apply _ h1 h2 p c).trans <| (shapeCast_1a_a_apply _ h0 c).trans <|
    slice2_axis0_apply o v hs (0 : Fin 1) c k (by simp [hk])

/-- A row sum of an `[a, b]` tile, recast to the column `[a, 1]` and broadcast over `[a, b]`, reads at `(p, c)` the sum of
    row `p`. -/
theorem rowSumCol_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ v 0x00000000#32 h hφ hacc) h1) h2 (ix2 p c)
      = ∑ k : Fin b, v (ix2 p k) :=
  (Gcn.Lib.broadcastTo_a1_ab_apply _ h2 p c).trans <| (Gcn.Lib.shapeCast_a_a1_apply _ h1 p 0).trans <|
    Gcn.Lib.rowSum_apply v h hφ hacc p

/-- Slab `k` of an `[m, a, b]` stack, loaded through the rectangle of extents `[1, a, b]` at the literal offsets `[o, 0, 0]`,
    `o = k`, reads at `(0, i, j)` the stack at `(k, i, j)`. -/
theorem ld_slab {Val : EltTy → Type} {e : EltTy} (x : (⟨3, ![m, a, b]⟩ : Shape).Idx → Val e) (o : ℕ) (k : Fin m) (hk : k.val = o)
    (inb : ∀ ax, (![o, 0, 0] : Fin 3 → ℕ) ax + (⟨3, ![1, a, b]⟩ : Shape).size ax ≤ (⟨3, ![m, a, b]⟩ : Shape).size ax)
    (i : Fin a) (j : Fin b) :
    View.ld (Val := Val) x (Rect.unit (s := ⟨3, ![m, a, b]⟩) ![o, 0, 0] (⟨3, ![1, a, b]⟩ : Shape).size inb) (ix3 (0 : Fin 1) i j)
      = x (ix3 k i j) := by
  show x ((Rect.unit (s := ⟨3, ![m, a, b]⟩) ![o, 0, 0] (⟨3, ![1, a, b]⟩ : Shape).size inb).idx (ix3 (0 : Fin 1) i j)) = _
  refine congrArg x (funext fun ax => Fin.ext ?_)
  match ax with
  | ⟨0, _⟩ => show o + 1 * 0 = k.val; omega
  | ⟨1, _⟩ => show 0 + 1 * i.val = i.val; omega
  | ⟨2, _⟩ => show 0 + 1 * j.val = j.val; omega

end Hmu.Lib
-- ==== Proof.Body.lean ====
/-
  The body's arithmetic, read entry by entry on the extended reals.

  A run of the body computes four values. The product of two matrices accumulated into zero is, at an entry, the
  textbook sum. The first output block adds the bias row to such a product. The block of weights is, at row p and
  centre c, the weight (through exp and log) of the expanded squared distance between row p of the first block and
  centre c: the block's row sums of squares, its product with the transposed centres, and the centres' sums of
  squares are read as plain sums. The second output block divides each weight by its row's sum.
-/
import proofs.«118470_g75067438399519_cont_9to1c4b_260_26_alg».proof.Proof.Gen.KernelIdeal.Skeleton
import proofs.«118470_g75067438399519_cont_9to1c4b_260_26_alg».proof.Proof.Spec
import proofs.«118470_g75067438399519_cont_9to1c4b_260_26_alg».proof.Proof.LibDotRecord
import proofs.«118470_g75067438399519_cont_9to1c4b_260_26_alg».proof.Proof.LibTransposedRecord
import proofs.«118470_g75067438399519_cont_9to1c4b_260_26_alg».proof.Proof.LibTileOps
import Idealize.ShloMosaic.PureOps.IdealRules

noncomputable section

namespace Dec.Body

open Cert.KernelIdeal Cert.KernelIdeal.Gen Idealize.ShloMosaic Idealize.ShloMosaic.ValueIdx

/-- The named reciprocal denotes the exact reciprocal of the divisor literal. -/
theorem inv_alpha : Named.named (F := Ideal) κ "inv_alpha" (φ := .f32) 0x40A00000#32 = invAlpha :=
  IdealRules.named_const.ideal_named_scalar _ _ _ _ rfl

/-- The product x · W at entry (p, q). -/
theorem pay2_apply (x0 : FVec Ideal S10000x128 .f32) (x2 : FVec Ideal S128x64 .f32) (p : Fin 10000) (q : Fin 64) :
    k0_pay2 (F := Ideal) x0 x2 (ix2 p q) = ∑ k : Fin 128, x0 (ix2 p k) * x2 (ix2 k q) := by
  unfold k0_pay2
  rw [shapeCast_self]
  exact DotRecord.matmul_zero_apply dot_S10000x128_S128x64_S10000x64_1_0_0_1_n_n rfl rfl rfl rfl rfl rfl x0 x2 none p q

/-- The first output block at entry (p, q): row p of the adjacency block against column q of the scratch, plus the bias. -/
theorem pay3_apply (v3 : FVec Ideal S400x10000 .f32) (v4 : FVec Ideal S10000x64 .f32) (v6 : FVec Ideal S1x64 .f32)
    (p : Fin 400) (q : Fin 64) :
    k0_pay3 (F := Ideal) v3 v4 v6 (ix2 p q) = (∑ j : Fin 10000, v3 (ix2 p j) * v4 (ix2 j q)) + v6 (ix2 (0 : Fin 1) q) := by
  unfold k0_pay3
  rw [shapeCast_self]
  exact congrArg₂ (· + ·)
    (DotRecord.matmul_zero_apply dot_S400x10000_S10000x64_S400x64_1_0_0_1_n_n rfl rfl rfl rfl rfl rfl v3 v4 none p q)
    (broadcastTo_1b_ab_apply v6 broadcasts_S1x64_S400x64 p q)

/-- The weights at row p, centre c. -/
theorem pay4_apply (v3 : FVec Ideal S400x10000 .f32) (v4 : FVec Ideal S10000x64 .f32) (v6 : FVec Ideal S1x64 .f32)
    (v11 : FVec Ideal S10x64 .f32) (p : Fin 400) (c : Fin 10) :
    k0_pay4 (F := Ideal) v3 v4 v6 v11 (ix2 p c)
      = weightX (sqDistX (fun k => k0_pay3 (F := Ideal) v3 v4 v6 (ix2 p k)) (fun k => v11 (ix2 c k))) := by
  unfold k0_pay4
  generalize k0_pay3 (F := Ideal) v3 v4 v6 = h
  have eA : broadcastTo S400x10 (shapeCast S400x1 (multiReduction .add [1] S400 (mulf h h) 0x00000000#32 reduces_S400x64_S400 (.inl rfl) rfl) shapeCasts_S400_S400x1) broadcasts_S400x1_S400x10 (ix2 p c)
      = ∑ k : Fin 64, h (ix2 p k) * h (ix2 p k) :=
    (Gcn.Lib.broadcastTo_a1_ab_apply _ broadcasts_S400x1_S400x10 p c).trans <|
      (Gcn.Lib.shapeCast_a_a1_apply _ shapeCasts_S400_S400x1 p 0).trans <|
        Gcn.Lib.rowSum_apply (mulf h h) reduces_S400x64_S400 (.inl rfl) rfl p
  have eB : matmul dot_S400x64_S10x64_S400x10_1_1_0_0_n_n none h v11 (constant S400x10 .f32 0x00000000#32) (ix2 p c)
      = ∑ k : Fin 64, h (ix2 p k) * v11 (ix2 c k) :=
    TransposedRecord.matmul_zero_apply dot_S400x64_S10x64_S400x10_1_1_0_0_n_n rfl rfl rfl rfl rfl rfl h v11 none p c
  have eC : broadcastTo S400x10 (shapeCast S1x10 (multiReduction .add [1] S10 (mulf v11 v11) 0x00000000#32 reduces_S10x64_S10 (.inl rfl) rfl) shapeCasts_S10_S1x10) broadcasts_S1x10_S400x10 (ix2 p c)
      = ∑ k : Fin 64, v11 (ix2 c k) * v11 (ix2 c k) :=
    (Hmu.Lib.rowVec_apply _ shapeCasts_S10_S1x10 broadcasts_S1x10_S400x10 p c).trans <|
      Gcn.Lib.rowSum_apply (mulf v11 v11) reduces_S10x64_S10 (.inl rfl) rfl c
  show Ideal.exp (nexpo * Ideal.log ((one + ((_ - two * _) + _) * _) + eps)) = _
  rw [eA, eB, eC, inv_alpha]
  rfl

/-- The second output block at entry (p, c): the weight divided by its row's sum. -/
theorem pay1_apply (v34 : FVec Ideal S400x10 .f32) (p : Fin 400) (c : Fin 10) :
    k0_pay1 (F := Ideal) v34 (ix2 p c) = assign (fun k => v34 (ix2 p k)) c := by
  unfold k0_pay1
  exact congrArg (Ideal.div (v34 (ix2 p c)))
    (Hmu.Lib.rowSumCol_apply v34 reduces_S400x10_S400 (.inl rfl) rfl shapeCasts_S400_S400x1 broadcasts_S400x1_S400x10 p c)

end Dec.Body

end
-- ==== Proof.Blocks.lean ====
/-
  From what one grid point computes to the two result arrays.

  The grid has 25 points; point t works on rows 400 t … 400 t + 399 of the adjacency and of both results, and sees
  the features, the weights, the bias row and the centres whole. The scratch is filled with x · W at point 0 and
  never written again, so after every point it holds x · W (an induction over the points, not an enumeration).
  Hence at every point the first output block is rows 400 t … of adj · (x · W) + b, and the second the same rows of
  the assignment in its expanded spelling; the 25 blocks tile each result, so each result array ends holding the
  whole-array function.
-/
import proofs.«118470_g75067438399519_cont_9to1c4b_260_26_alg».proof.Proof.Gen.KernelIdeal.Value
import proofs.«118470_g75067438399519_cont_9to1c4b_260_26_alg».proof.Proof.Pieces
import proofs.«118470_g75067438399519_cont_9to1c4b_260_26_alg».proof.Proof.Body
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Dec.Blocks

open Cert.KernelIdeal Cert.KernelIdeal.Gen Idealize.ShloMosaic.StableHlo

variable (m : (ℓ : Loc nD τ sig) → Buf (Elt Ideal) ℓ) (ρ : Dev nD → PrngReg)

/-! ## Which block each window shows at a point -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

/-- The features are seen whole at every point. -/
theorem iblk0_apply (c : Dev nD) (t : Fin cfg0.N) (y : S10000x128.Idx) :
    (iblk m c 0 t : Vec Ideal S10000x128 .f32) y = m ((c : Thread nD τ).loc main_arg0) y := by
  obtain ⟨e0, e1⟩ := idx0 t
  unfold iblk
  rw [View.read_apply]
  show V m c main_arg0 _ = m (c.tc.loc main_arg0) _
  rw [V_main_arg0 m c]
  congr 1
  funext a
  apply Fin.ext
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

theorem iblk0 (c : Dev nD) (t : Fin cfg0.N) :
    (iblk m c 0 t : Vec Ideal S10000x128 .f32) = m ((c : Thread nD τ).loc main_arg0) := funext (iblk0_apply m c t)

/-- The weights are seen whole at every point. -/
theorem iblk2_apply (c : Dev nD) (t : Fin cfg0.N) (y : S128x64.Idx) :
    (iblk m c 2 t : Vec Ideal S128x64 .f32) y = m ((c : Thread nD τ).loc main_arg2) y := by
  obtain ⟨e0, e1⟩ := idx2 t
  unfold iblk
  rw [View.read_apply]
  show V m c main_arg2 _ = m (c.tc.loc main_arg2) _
  rw [V_main_arg2 m c]
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 64 + 1 * (y 1).val = (y 1).val; rw [e1]; omega

theorem iblk2 (c : Dev nD) (t : Fin cfg0.N) :
    (iblk m c 2 t : Vec Ideal S128x64 .f32) = m ((c : Thread nD τ).loc main_arg2) := funext (iblk2_apply m c t)

/-- The centres are seen whole at every point. -/
theorem iblk4_apply (c : Dev nD) (t : Fin cfg0.N) (y : S10x64.Idx) :
    (iblk m c 4 t : Vec Ideal S10x64 .f32) y = m ((c : Thread nD τ).loc main_arg4) y := by
  obtain ⟨e0, e1⟩ := idx4 t
  unfold iblk
  rw [View.read_apply]
  show V m c main_arg4 _ = m (c.tc.loc main_arg4) _
  rw [V_main_arg4 m c]
  congr 1
  funext a
  apply Fin.ext
  match a with
  | ⟨0, _⟩ => show win0_4.index t (0 : Fin 2) * 10 + 1 * (y 0).val = (y 0).val; rw [e0]; omega
  | ⟨1, _⟩ => show win0_4.index t (1 : Fin 2) * 64 + 1 * (y 1).val = (y 1).val; rw [e1]; omega

theorem iblk4 (c : Dev nD) (t : Fin cfg0.N) :
    (iblk m c 4 t : Vec Ideal S10x64 .f32) = m ((c : Thread nD τ).loc main_arg4) := funext (iblk4_apply m c t)

/-- Row r of the adjacency block at point t is row 400 t + r of the adjacency. -/
theorem iblk1_apply (c : Dev nD) (t : Fin cfg0.N) (r : Fin 400) (hb : 400 * t.val + r.val < 10000) (j : Fin 10000) :
    (iblk m c 1 t : Vec Ideal S400x10000 .f32) (ix2 r j)
      = (m ((c : Thread nD τ).loc main_arg1) : S10000x10000.Idx → EReal) (ix2 ⟨400 * t.val + r.val, hb⟩ j) := by
  obtain ⟨e0, e1⟩ := idx1 t
  unfold iblk
  rw [View.read_apply]
  show V m c main_arg1 _ = m (c.tc.loc main_arg1) _
  rw [V_main_arg1 m c]
  congr 1
  funext a
  apply Fin.ext
  match a with
  | ⟨0, _⟩ => show win0_1.index t (0 : Fin 2) * 400 + 1 * r.val = 400 * t.val + r.val; rw [e0]; omega
  | ⟨1, _⟩ => show win0_1.index t (1 : Fin 2) * 10000 + 1 * j.val = j.val; rw [e1]; omega

/-- The bias row the region finds is the bias vector recast to one row. -/
theorem V_bias (c : Dev nD) :
    (V m c main_v0 : S1x64.Idx → EReal) = shapeCast S1x64 (m ((c : Thread nD τ).loc main_arg3)) shapeCasts_S64_S1x64 := by
  dsimp only [V, hostOps0]
  after_results
  rfl

/-- Entry q of the bias row at any point is entry q of the bias vector. -/
theorem iblk3_apply (c : Dev nD) (t : Fin cfg0.N) (q : Fin 64) :
    (iblk m c 3 t : Vec Ideal S1x64 .f32) (ix2 (0 : Fin 1) q)
      = (m ((c : Thread nD τ).loc main_arg3) : S64.Idx → EReal) (ix1 q) := by
  obtain ⟨e0, e1⟩ := idx3 t
  unfold iblk
  rw [View.read_apply]
  show V m c main_v0 _ = _
  rw [V_bias m c]
  refine (congrArg _ (?_ : _ = ix2 (0 : Fin 1) q)).trans (shapeCast_a_1a_apply _ shapeCasts_S64_S1x64 0 q)
  funext a
  apply Fin.ext
  match a with
  | ⟨0, _⟩ => show win0_3.index t (0 : Fin 2) * 1 + 1 * 0 = 0; rw [e0]
  | ⟨1, _⟩ => show win0_3.index t (1 : Fin 2) * 64 + 1 * q.val = q.val; rw [e1]; omega

/-! ## The scratch holds x · W after every point -/

/-- x · W, as the body computes it. -/
abbrev sup (c : Dev nD) : Vec Ideal S10000x64 .f32 :=
  k0_pay2 (F := Ideal) (m ((c : Thread nD τ).loc main_arg0)) (m ((c : Thread nD τ).loc main_arg2))

theorem scratch_eq (c : Dev nD) : ∀ (n : ℕ) (hn : n < cfg0.N), (outsAt0 m c n hn).2.2 = sup m c
  | 0, hn => by
    rw [outsAt0_A m c ⟨0, hn⟩ rfl]
    dsimp only
    rw [Pieces.sout_A_0, iblk0, iblk2]
  | n + 1, hn => by
    have hN : cfg0.N = 25 := N_0
    have hB : ¬(⟨n + 1, hn⟩ : Fin cfg0.N).val % 25 = 0 := by dsimp only; omega
    rw [outsAt0_B m c ⟨n + 1, hn⟩ hB]
    dsimp only
    unfold sout0_B_0
    exact scratch_eq c n _

/-- What a point leaves in the first output's buffer. -/
theorem after5 (c : Dev nD) (t : Fin cfg0.N) :
    (outsAt0 m c t.val t.isLt).1 = k0_pay3 (F := Ideal) (iblk m c 1 t) (sup m c) (iblk m c 3 t) := by
  by_cases h0 : t.val % 25 = 0
  · rw [outsAt0_A m c t h0]
    dsimp only
    rw [Pieces.out_A_5, iblk0, iblk2]
  · rw [outsAt0_B m c t h0]
    dsimp only
    rw [Pieces.out_B_5, scratch_eq]

/-- What a point leaves in the second output's buffer. -/
theorem after6 (c : Dev nD) (t : Fin cfg0.N) :
    (outsAt0 m c t.val t.isLt).2.1
      = k0_pay1 (F := Ideal) (k0_pay4 (F := Ideal) (iblk m c 1 t) (sup m c) (iblk m c 3 t) (iblk m c 4 t)) := by
  by_cases h0 : t.val % 25 = 0
  · rw [outsAt0_A m c t h0]
    dsimp only
    rw [Pieces.out_A_6, iblk0, iblk2]
  · rw [outsAt0_B m c t h0]
    dsimp only
    rw [Pieces.out_B_6, scratch_eq]

/-! ## A block's entries are the whole-array functions' entries -/

/-- An entry of the first output block, over any blocks that read as rows 400 T + p of the adjacency and as the bias. -/
theorem out_entry (v3 : FVec Ideal S400x10000 .f32) (v6 : FVec Ideal S1x64 .f32)
    (x : FVec Ideal S10000x128 .f32) (adj : FVec Ideal S10000x10000 .f32) (w : FVec Ideal S128x64 .f32)
    (b : FVec Ideal S64 .f32) (T : ℕ) (p : Fin 400) (hb : 400 * T + p.val < 10000)
    (h3 : ∀ j : Fin 10000, v3 (ix2 p j) = adj (ix2 ⟨400 * T + p.val, hb⟩ j))
    (h6 : ∀ q : Fin 64, v6 (ix2 (0 : Fin 1) q) = b (ix1 q)) (q : Fin 64) :
    k0_pay3 (F := Ideal) v3 (k0_pay2 (F := Ideal) x w) v6 (ix2 p q) = hidden x adj w b ⟨400 * T + p.val, hb⟩ q := by
  rw [Body.pay3_apply]
  unfold hidden
  refine congrArg₂ (· + ·) (Finset.sum_congr rfl fun j _ => ?_) (h6 q)
  rw [h3 j, Body.pay2_apply]
  rfl

/-- An entry of the second output block, likewise. -/
theorem q_entry (v3 : FVec Ideal S400x10000 .f32) (v6 : FVec Ideal S1x64 .f32) (v11 : FVec Ideal S10x64 .f32)
    (x : FVec Ideal S10000x128 .f32) (adj : FVec Ideal S10000x10000 .f32) (w : FVec Ideal S128x64 .f32)
    (b : FVec Ideal S64 .f32) (T : ℕ) (p : Fin 400) (hb : 400 * T + p.val < 10000)
    (h3 : ∀ j : Fin 10000, v3 (ix2 p j) = adj (ix2 ⟨400 * T + p.val, hb⟩ j))
    (h6 : ∀ q : Fin 64, v6 (ix2 (0 : Fin 1) q) = b (ix1 q)) (c : Fin 10) :
    k0_pay1 (F := Ideal) (k0_pay4 (F := Ideal) v3 (k0_pay2 (F := Ideal) x w) v6 v11) (ix2 p c)
      = qArrX x adj w b v11 (ix2 ⟨400 * T + p.val, hb⟩ c) := by
  rw [Body.pay1_apply]
  unfold qArrX
  refine congrArg (fun u => assign u c) (funext fun c' => ?_)
  rw [Body.pay4_apply]
  refine congrArg weightX (congrArg (fun h => sqDistX h _) (funext fun k => ?_))
  exact out_entry v3 v6 x adj w b T p hb h3 h6 k

/-! ## The two result arrays -/

/-- The first result: adj · (x · W) + b of the launch contents. -/
abbrev outRes (c : Dev nD) : S10000x64.Idx → EReal :=
  outArr (m ((c : Thread nD τ).loc main_arg0)) (m ((c : Thread nD τ).loc main_arg1))
    (m ((c : Thread nD τ).loc main_arg2)) (m ((c : Thread nD τ).loc main_arg3))

/-- The second result, in the body's spelling. -/
abbrev qRes (c : Dev nD) : S10000x10.Idx → EReal :=
  qArrX (m ((c : Thread nD τ).loc main_arg0)) (m ((c : Thread nD τ).loc main_arg1))
    (m ((c : Thread nD τ).loc main_arg2)) (m ((c : Thread nD τ).loc main_arg3)) (m ((c : Thread nD τ).loc main_arg4))

theorem entry5 (c : Dev nD) (t : Fin cfg0.N) (j : S400x64.Idx) :
    (k0_pay3 (F := Ideal) (iblk m c 1 t) (sup m c) (iblk m c 3 t) : Vec Ideal S400x64 .f32) j
      = outRes m c (((cfg0.win 5).blk t).view.emb j) := by
  obtain ⟨p, q, rfl⟩ : ∃ (p : Fin 400) (q : Fin 64), j = ix2 p q := ⟨j 0, j 1, eq_ix2 j⟩
  obtain ⟨e0, e1⟩ := idx5 t
  have hN : cfg0.N = 25 := N_0
  have hb : 400 * t.val + p.val < 10000 := by have := t.isLt; have := p.isLt; omega
  have he : ((cfg0.win 5).blk t).view.emb (ix2 p q) = ix2 ⟨400 * t.val + p.val, hb⟩ q := by
    funext a
    apply Fin.ext
    match a with
    | ⟨0, _⟩ => show win0_5.index t (0 : Fin 2) * 400 + 1 * p.val = 400 * t.val + p.val; rw [e0]; omega
    | ⟨1, _⟩ => show win0_5.index t (1 : Fin 2) * 64 + 1 * q.val = q.val; rw [e1]; omega
  refine (out_entry (iblk m c 1 t) (iblk m c 3 t) _ (m ((c : Thread nD τ).loc main_arg1)) _ (m ((c : Thread nD τ).loc main_arg3))
    t.val p hb (iblk1_apply m c t p hb) (iblk3_apply m c t) q).trans ?_
  exact (congrArg (outRes m c) he).symm

theorem entry6 (c : Dev nD) (t : Fin cfg0.N) (j : S400x10.Idx) :
    (k0_pay1 (F := Ideal) (k0_pay4 (F := Ideal) (iblk m c 1 t) (sup m c) (iblk m c 3 t) (iblk m c 4 t)) : Vec Ideal S400x10 .f32) j
      = qRes m c (((cfg0.win 6).blk t).view.emb j) := by
  obtain ⟨p, q, rfl⟩ : ∃ (p : Fin 400) (q : Fin 10), j = ix2 p q := ⟨j 0, j 1, eq_ix2 j⟩
  obtain ⟨e0, e1⟩ := idx6 t
  have hN : cfg0.N = 25 := N_0
  have hb : 400 * t.val + p.val < 10000 := by have := t.isLt; have := p.isLt; omega
  have he : ((cfg0.win 6).blk t).view.emb (ix2 p q) = ix2 ⟨400 * t.val + p.val, hb⟩ q := by
    funext a
    apply Fin.ext
    match a with
    | ⟨0, _⟩ => show win0_6.index t (0 : Fin 2) * 400 + 1 * p.val = 400 * t.val + p.val; rw [e0]; omega
    | ⟨1, _⟩ => show win0_6.index t (1 : Fin 2) * 10 + 1 * q.val = q.val; rw [e1]; omega
  rw [iblk4]
  refine (q_entry (iblk m c 1 t) (iblk m c 3 t) (m ((c : Thread nD τ).loc main_arg4)) _ (m ((c : Thread nD τ).loc main_arg1)) _
    (m ((c : Thread nD τ).loc main_arg3)) t.val p hb (iblk1_apply m c t p hb) (iblk3_apply m c t) q).trans ?_
  exact (congrArg (qRes m c) he).symm

/-- What point t writes back to the first result is block t of the whole-array function. -/
theorem flushed5_eq (c : Dev nD) (t : Fin cfg0.N) :
    (dats m 0 c).flushed 5 t = ((cfg0.win 5).blk t).view.read (Elt Ideal) (outRes m c) := by
  rw [Cert.KernelIdeal.Value.flushed5 m c t, after5]
  funext j
  exact entry5 m c t j

theorem flushed6_eq (c : Dev nD) (t : Fin cfg0.N) :
    (dats m 0 c).flushed 6 t = ((cfg0.win 6).blk t).view.read (Elt Ideal) (qRes m c) := by
  rw [Cert.KernelIdeal.Value.flushed6 m c t, after6]
  funext j
  exact entry6 m c t j

/-- An index of the first result is in point t's block iff its coordinates are in the block's ranges. -/
theorem mem_blk5 (t : Fin cfg0.N) (i : S10000x64.Idx) :
    i ∈ ((cfg0.win 5).blk t).view.set ↔ ∀ a : Fin 2, win0_5.index t a * S400x64.size a ≤ (i a).val ∧ (i a).val < win0_5.index t a * S400x64.size a + S400x64.size a := by
  show i ∈ ((View.whole main_v1_0).slice (win0_5.rect t)).set ↔ _
  rw [View.set_slice_whole, Rect.mem_set_unit]
  exact Iff.rfl

theorem mem_blk6 (t : Fin cfg0.N) (i : S10000x10.Idx) :
    i ∈ ((cfg0.win 6).blk t).view.set ↔ ∀ a : Fin 2, win0_6.index t a * S400x10.size a ≤ (i a).val ∧ (i a).val < win0_6.index t a * S400x10.size a + S400x10.size a := by
  show i ∈ ((View.whole main_v1_1).slice (win0_6.rect t)).set ↔ _
  rw [View.set_slice_whole, Rect.mem_set_unit]
  exact Iff.rfl

/-- Row r of a result lies in the block of point r / 400. -/
theorem cover5 (i : S10000x64.Idx) :
    ∃ t : Fin cfg0.N, (cfg0.win 5).flush t = true ∧ i ∈ ((cfg0.win 5).blk t).view.set := by
  have hN : cfg0.N = 25 := N_0
  have hi0 : (i 0).val < 10000 := (i 0).isLt
  have hi1 : (i 1).val < 64 := (i 1).isLt
  obtain ⟨t, ht⟩ : ∃ t : Fin cfg0.N, t.val = (i 0).val / 400 := ⟨⟨(i 0).val / 400, by rw [hN]; omega⟩, rfl⟩
  obtain ⟨e0, e1⟩ := idx5 t
  refine ⟨t, flush0_5 t, ?_⟩
  rw [mem_blk5]
  intro a
  match a with
  | ⟨0, _⟩ => show win0_5.index t (0 : Fin 2) * 400 ≤ (i 0).val ∧ (i 0).val < win0_5.index t (0 : Fin 2) * 400 + 400; rw [e0, ht]; omega
  | ⟨1, _⟩ => show win0_5.index t (1 : Fin 2) * 64 ≤ (i 1).val ∧ (i 1).val < win0_5.index t (1 : Fin 2) * 64 + 64; rw [e1]; omega

theorem cover6 (i : S10000x10.Idx) :
    ∃ t : Fin cfg0.N, (cfg0.win 6).flush t = true ∧ i ∈ ((cfg0.win 6).blk t).view.set := by
  have hN : cfg0.N = 25 := N_0
  have hi0 : (i 0).val < 10000 := (i 0).isLt
  have hi1 : (i 1).val < 10 := (i 1).isLt
  obtain ⟨t, ht⟩ : ∃ t : Fin cfg0.N, t.val = (i 0).val / 400 := ⟨⟨(i 0).val / 400, by rw [hN]; omega⟩, rfl⟩
  obtain ⟨e0, e1⟩ := idx6 t
  refine ⟨t, flush0_6 t, ?_⟩
  rw [mem_blk6]
  intro a
  match a with
  | ⟨0, _⟩ => show win0_6.index t (0 : Fin 2) * 400 ≤ (i 0).val ∧ (i 0).val < win0_6.index t (0 : Fin 2) * 400 + 400; rw [e0, ht]; omega
  | ⟨1, _⟩ => show win0_6.index t (1 : Fin 2) * 10 ≤ (i 1).val ∧ (i 1).val < win0_6.index t (1 : Fin 2) * 10 + 10; rw [e1]; omega

/-- The first result array after the run. -/
theorem final5 (c : Dev nD) : (dats m 0 c).arrAt 5 cfg0.N = outRes m c :=
  (dats m 0 c).arrAt_eq_of_cover 5 (outRes m c) (fun t _ => flushed5_eq m c t) cover5

/-- The second result array after the run. -/
theorem final6 (c : Dev nD) : (dats m 0 c).arrAt 6 cfg0.N = qRes m c :=
  (dats m 0 c).arrAt_eq_of_cover 6 (qRes m c) (fun t _ => flushed6_eq m c t) cover6

/-- The run: both result arrays at their whole-array functions of the launch contents, the arguments unchanged. -/
theorem run : θ_run defs (onTc (τ := τ) (main (F := Ideal))) ⟨m, fun _ => 0, ρ⟩ fun r => ∀ c : Dev nD,
      r.2.mem ((c : Thread nD τ).loc main_v1_0) = outRes m c
      ∧ r.2.mem ((c : Thread nD τ).loc main_v1_1) = qRes m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (Cert.KernelIdeal.Value.run_blocks m ρ)

end Dec.Blocks

end
-- ==== Proof.RefRead.lean ====
/-
  The reference program, read entry by entry.

  The reference forms the hidden layer by two matrix products and a broadcast bias; spreads it and the centres over a
  [nodes, centres, features] box, subtracts, squares and sums over the features; divides by the literal α, adds 1 and
  ε, takes the reciprocal to the power e; and divides each row by its sum. Read at an entry, each layout step is an
  index shuffle, each product and each sum a plain sum over the contracted or reduced axis (its initial value is 0),
  so the two results are the arrays `outArr` and `qArr` of the specification.
-/
import proofs.«118470_g75067438399519_cont_9to1c4b_260_26_alg».proof.Proof.Gen.ReferenceIdeal.Read
import proofs.«118470_g75067438399519_cont_9to1c4b_260_26_alg».proof.Proof.Spec

noncomputable section

namespace Dec.RefRead

open Cert.ReferenceIdeal Cert.ReferenceIdeal.Gen Cert.ReferenceIdeal.Read Idealize.ShloMosaic Idealize.ShloMosaic.ValueIdx

variable (x0 : FVec Ideal S10000x128 .f32) (x1 : FVec Ideal S10000x10000 .f32) (x2 : FVec Ideal S128x64 .f32)
  (x3 : FVec Ideal S64 .f32) (x4 : FVec Ideal S10x64 .f32)

/-- x · W at entry (j, q). -/
theorem v0_apply (j : Fin 10000) (q : Fin 64) : val_main_v0 (F := Ideal) x0 x2 (ix2 j q) = support x0 x2 j q := by
  rw [val_main_v0_apply]
  unfold support
  refine Finset.sum_congr rfl fun f _ => ?_
  have e1 : lidx_main_v0 (ix2 j q) f = ix2 j f := funext fun a => Fin.ext (by match a with | ⟨0, _⟩ => rfl | ⟨1, _⟩ => rfl)
  have e2 : ridx_main_v0 (ix2 j q) f = ix2 f q := funext fun a => Fin.ext (by match a with | ⟨0, _⟩ => rfl | ⟨1, _⟩ => rfl)
  rw [e1, e2]

/-- The hidden layer at entry (p, q). -/
theorem v4_apply (p : Fin 10000) (q : Fin 64) : val_main_v4 (F := Ideal) x0 x1 x2 x3 (ix2 p q) = hidden x0 x1 x2 x3 p q := by
  rw [val_main_v4_apply, val_main_v1_apply, val_main_v3_apply, val_main_v2_apply]
  unfold hidden
  refine congrArg₂ (· + ·) (Finset.sum_congr rfl fun j _ => ?_) ?_
  · have e1 : lidx_main_v1 (ix2 p q) j = ix2 p j := funext fun a => Fin.ext (by match a with | ⟨0, _⟩ => rfl | ⟨1, _⟩ => rfl)
    have e2 : ridx_main_v1 (ix2 p q) j = ix2 j q := funext fun a => Fin.ext (by match a with | ⟨0, _⟩ => rfl | ⟨1, _⟩ => rfl)
    rw [e1, e2, v0_apply]
  · exact congrArg x3 (funext fun a => Fin.ext (by match a with | ⟨0, _⟩ => rfl))

/-- The squared distance of row p of the hidden layer to centre c. -/
theorem v11_apply (p : Fin 10000) (c : Fin 10) :
    val_main_v11 (F := Ideal) x0 x1 x2 x3 x4 (ix2 p c) = sqDist (hidden x0 x1 x2 x3 p) (fun k => x4 (ix2 c k)) := by
  rw [val_main_v11_apply, val_main_cst_apply, Ideal.ofBits_def, Ideal.ofBits_zero_f32, zero_add]
  unfold sqDist
  refine Finset.sum_congr rfl fun k _ => ?_
  rw [val_main_v10_apply, val_main_v9_apply, val_main_v7_apply, val_main_v5_apply, val_main_v8_apply, val_main_v6_apply]
  have e5 : idx_main_v5 (idx_main_v7 (idx_main_v11 (ix2 p c) k)) = ix2 p k :=
    funext fun a => Fin.ext (by match a with | ⟨0, _⟩ => rfl | ⟨1, _⟩ => rfl)
  have e6 : idx_main_v6 (idx_main_v8 (idx_main_v11 (ix2 p c) k)) = ix2 c k :=
    funext fun a => Fin.ext (by match a with | ⟨0, _⟩ => rfl | ⟨1, _⟩ => rfl)
  rw [e5, e6, v4_apply]
  rfl

/-- The weight of row p towards centre c. -/
theorem v21_apply (p : Fin 10000) (c : Fin 10) :
    val_main_v21 (F := Ideal) x0 x1 x2 x3 x4 (ix2 p c) = weight (sqDist (hidden x0 x1 x2 x3 p) (fun k => x4 (ix2 c k))) := by
  rw [val_main_v21_apply, val_main_v19_apply, val_main_v17_apply, val_main_v15_apply, val_main_v13_apply, v11_apply,
    val_main_v20_apply, val_main_v18_apply, val_main_v16_apply, val_main_v14_apply, val_main_v12_apply,
    val_main_cst_4_apply, val_main_cst_3_apply, val_main_cst_2_apply, val_main_cst_1_apply, val_main_cst_0_apply]
  rfl

/-- The assignment of row p to centre c. -/
theorem v25_apply (p : Fin 10000) (c : Fin 10) :
    val_main_v25 (F := Ideal) x0 x1 x2 x3 x4 (ix2 p c)
      = assign (fun c' => weight (sqDist (hidden x0 x1 x2 x3 p) (fun k => x4 (ix2 c' k)))) c := by
  rw [val_main_v25_apply, val_main_v24_apply, val_main_v23_apply, val_main_v22_apply, val_main_cst_5_apply,
    Ideal.ofBits_def, Ideal.ofBits_zero_f32, zero_add, v21_apply]
  unfold assign
  refine congrArg (Ideal.div _) (Finset.sum_congr rfl fun k _ => ?_)
  have e : idx_main_v22 (idx_main_v23 (idx_main_v24 (ix2 p c))) k = ix2 p k :=
    funext fun a => Fin.ext (by match a with | ⟨0, _⟩ => rfl | ⟨1, _⟩ => rfl)
  rw [e, v21_apply]

/-- The reference's first result is the hidden layer. -/
theorem out_eq : val_main_v4 (F := Ideal) x0 x1 x2 x3 = outArr x0 x1 x2 x3 := by
  funext i
  obtain ⟨p, q, rfl⟩ : ∃ (p : Fin 10000) (q : Fin 64), i = ix2 p q := ⟨i 0, i 1, eq_ix2 i⟩
  exact v4_apply x0 x1 x2 x3 p q

/-- The reference's second result is the assignment. -/
theorem q_eq : val_main_v25 (F := Ideal) x0 x1 x2 x3 x4 = qArr x0 x1 x2 x3 x4 := by
  funext i
  obtain ⟨p, c, rfl⟩ : ∃ (p : Fin 10000) (c : Fin 10), i = ix2 p c := ⟨i 0, i 1, eq_ix2 i⟩
  exact v25_apply x0 x1 x2 x3 x4 p c

end Dec.RefRead

end
-- ==== Proof.Finite.lean ====
/-
  Finite inputs are real numbers. The precondition is the conjunction, over the five float arrays, of
  "every entry has absolute value strictly below +infinity". At the ideal reading a float is an extended
  real, its absolute value is max x (-x), and the pattern 0x7F800000 denotes the top element; an extended
  real whose absolute value lies strictly below the top element is neither the bottom nor the top one, so
  it is (the image of) a real number.
-/
import proofs.«118470_g75067438399519_cont_9to1c4b_260_26_alg».proof.Pre_finite_inputs
import Idealize.ShloMosaic.PureOps.Ideal
import Idealize.ShloMosaic.Lib.ValueIdx
import Idealize.ShloMosaic.Lib.ReduceAll

noncomputable section

namespace Dec.Finite

open Idealize.ShloMosaic

/-- An extended real whose absolute value `max x (-x)` lies strictly below the top element is a real:
    at the bottom and at the top element that maximum is the top element itself. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern of +infinity denotes the top element. -/
theorem inf_eq_top : Ideal.ofBits .f32 0x7F800000#32 = (⊤ : EReal) := by
  simp [Ideal.ofBits, Ideal.ieee]

/-- The rank-0 shape has one index. -/
instance : Subsingleton Cert.Pre_finite_inputs.S_.Idx := ⟨fun a b => funext fun d => d.elim0⟩

/-- One conjunct, for any shape: if the reduction by `and` over all axes of the entrywise test
    `|a| < +inf` is 1, then every entry of `a` is a real. The reduction being 1 gives the test at each
    index; no index is ever enumerated. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hS : 0 < Cert.Pre_finite_inputs.S_.numel)
    (h : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hS ValueIdx.ix0 = 1#1)
    (i : s.Idx) : ∃ r : ℝ, a i = (r : EReal) := by
  have e := Host.reduce_andi_all _ _ hr hS _ h i
  have e' : Ideal.cmp .olt (max (a i) (-(a i))) (Ideal.ofBits .f32 0x7F800000#32) = 1#1 := e
  rw [inf_eq_top] at e'
  refine real_of_abs_lt_top (a i) ?_
  by_contra hn
  simp [Ideal.cmp, hn] at e'

/-- The precondition holding (its one result word is 1) makes every entry of each of the five arrays a
    real. The result word is a conjunction of five reductions; each conjunct is read by `real_of_all`. -/
theorem real_of_pre [Cert.Pre_finite_inputs.Facts]
    (x : FVec Ideal Cert.Pre_finite_inputs.S10000x128 .f32)
    (adj : FVec Ideal Cert.Pre_finite_inputs.S10000x10000 .f32)
    (w : FVec Ideal Cert.Pre_finite_inputs.S128x64 .f32)
    (b : FVec Ideal Cert.Pre_finite_inputs.S64 .f32)
    (mu : FVec Ideal Cert.Pre_finite_inputs.S10x64 .f32)
    (h : Cert.Pre_finite_inputs.fn (F := Ideal) x adj w b mu = (fun _ => 1#1)) :
    (∀ i, ∃ r : ℝ, x i = (r : EReal)) ∧ (∀ i, ∃ r : ℝ, adj i = (r : EReal)) ∧
    (∀ i, ∃ r : ℝ, w i = (r : EReal)) ∧ (∀ i, ∃ r : ℝ, b i = (r : EReal)) ∧
    (∀ i, ∃ r : ℝ, mu i = (r : EReal)) := by
  have h0 := congrFun h ValueIdx.ix0
  dsimp only [Cert.Pre_finite_inputs.fn, Cert.Pre_finite_inputs.fn_part1, Idealize.ShloMosaic.andi] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨real_of_all x _ _ _ h1, real_of_all adj _ _ _ h2, real_of_all w _ _ _ h3,
    real_of_all b _ _ _ h4, real_of_all mu _ _ _ h5⟩

end Dec.Finite

end
-- ==== Proof.lean ====
/-
  A graph-convolution layer followed by a soft cluster assignment: the kernel against its reference.

  Both programs compute hidden = adj · (x · W) + b and, for each node r and each of ten centres c, the weight
  u(r, c) = (1 + d(r, c) / α + ε)^(-e) of the squared distance d(r, c) between row r of hidden and centre c, divided
  by the row's sum of weights. The kernel sweeps the adjacency in 25 blocks of 400 rows, keeping x · W in a scratch
  buffer it fills at the first block; it spells the squared distance expanded (‖h‖² - 2 h·m + ‖m‖²), the division by
  α as a product with its exact reciprocal (the constant named "inv_alpha"), and the power as exp (-e · log ·).

  The three frames are the generated ones (the reference's is its generated run with the results dropped). The
  idealization's one rewrite is the named reciprocal. For the value claim: the kernel's run leaves both result arrays
  at whole-array functions of the inputs (the blocks tile the arrays and the scratch holds x · W after every block);
  the reference's run, read entry by entry, leaves the specification's arrays; the hidden layers are the same sums
  term for term, and the two spellings of the assignment agree because finite inputs make every entry of hidden and
  of the centres a real number, so that the square expands, the base of the power is a positive real, and the power
  of its reciprocal is the exponential of -e times its logarithm.
-/
import proofs.«118470_g75067438399519_cont_9to1c4b_260_26_alg».proof.Defs
import proofs.«118470_g75067438399519_cont_9to1c4b_260_26_alg».proof.Proof.Gen.Kernel
import proofs.«118470_g75067438399519_cont_9to1c4b_260_26_alg».proof.Proof.Gen.Kernel.Frame
import proofs.«118470_g75067438399519_cont_9to1c4b_260_26_alg».proof.Proof.Gen.KernelIdeal
import proofs.«118470_g75067438399519_cont_9to1c4b_260_26_alg».proof.Proof.Gen.KernelIdeal.Frame
import proofs.«118470_g75067438399519_cont_9to1c4b_260_26_alg».proof.Proof.Gen.KernelIdeal.Value
import proofs.«118470_g75067438399519_cont_9to1c4b_260_26_alg».proof.Proof.Gen.ReferenceIdeal
import proofs.«118470_g75067438399519_cont_9to1c4b_260_26_alg».proof.Proof.Gen.ReferenceIdeal.Run
import proofs.«118470_g75067438399519_cont_9to1c4b_260_26_alg».proof.Proof.Gen.ReferenceIdeal.Read
import proofs.«118470_g75067438399519_cont_9to1c4b_260_26_alg».proof.Proof.Gen.Pre_finite_inputs
import proofs.«118470_g75067438399519_cont_9to1c4b_260_26_alg».proof.Proof.Blocks
import proofs.«118470_g75067438399519_cont_9to1c4b_260_26_alg».proof.Proof.RefRead
import proofs.«118470_g75067438399519_cont_9to1c4b_260_26_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one rewrite of the idealization: the literal 5.0 named as the exact reciprocal of the literal α. -/
theorem preserves : Cert.preserves_Kernel_KernelIdeal :=
  IdealRules.named_const.statement Cert.KernelIdeal.κ "inv_alpha" .f32 0x40A00000#32 ((67108864 / 13421773 : ℝ) : EReal) rfl

/-- Both programs end with the hidden layer and the assignment of inputs that agree. -/
theorem algebraic : Cert.algebraic_KernelIdeal_ReferenceIdeal := by
  intro m ρ m' ρ' hpre hagree
  refine ⟨fun c => Dec.Blocks.outRes m c,
    fun c => Dec.qArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1, (h c).2.1.trans ?_, (h c).2.2⟩)
      (Dec.Blocks.run m ρ)
    obtain ⟨hx, hadj, hw, hb, hmu⟩ := Dec.Finite.real_of_pre _ _ _ _ _ (hpre c)
    exact Dec.qArrX_eq_qArr _ _ _ _ _ hx hadj hw hb hmu
  · refine (θ_run Cert.ReferenceIdeal.defs _ _).mono
      (fun r h c => ⟨(h c).1.trans ?_, (h c).2.1.trans ?_, (h c).2.2⟩)
      (Cert.ReferenceIdeal.Value.run (F := Ideal) m' ρ')
    · rw [Cert.ReferenceIdeal.Read.val_main_v4_eq, Dec.RefRead.out_eq, (hagree c).1, (hagree c).2.1, (hagree c).2.2.1,
        (hagree c).2.2.2.1]
    · rw [Cert.ReferenceIdeal.Read.val_main_v25_eq, Dec.RefRead.q_eq, (hagree c).1, (hagree c).2.1, (hagree c).2.2.1,
        (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
